-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S1x128 : Shape := ⟨2, ![1, 128]⟩

abbrev nBuf : Space → Nat
  | .hbm => 35
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_1_0_0_n_n_wf : DotDims.WF S5000x128 S128x128 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 45
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_cst : Ref sig .tc := ⟨.hbm, 42, rfl⟩
abbrev main_call0_v0 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.TilePayload.lean ====
/-
  What the kernel body computes on one tile of 5000 nodes, read at a row `p` of the tile and an output channel `q`.

  The body loads the tile's aggregated features `a` and node features `x` ([5000, 128]), both weight matrices
  ([128, 128]) and the bias ([128]); narrows the four matrices to bf16 (the identity on ideal values); forms the two
  products, each contracting the LAST axis of both operands (so row `q` of a weight matrix meets row `p` of the
  features), into zero accumulators; adds them; adds the bias laid out as one row and repeated down the tile; and
  takes the maximum with zero. So entry `(p, q)` is

      max ( (Σ_k a[p,k] · wl[q,k]  +  Σ_k x[p,k] · wr[q,k])  +  b[q] ,  0 ).
-/
import proofs.«126269_j56796647522798_1_alg».proof.Proof.Gen.KernelIdeal.Skeleton
import proofs.«126269_j56796647522798_1_alg».proof.Proof.LibContract1
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-- The body's product: [5000, 128] by [128, 128], axis 1 of each contracted, axis 0 of each kept. -/
abbrev D : DotDims S5000x128 S128x128 S5000x128 := dot_S5000x128_S128x128_S5000x128_1_1_0_0_n_n

/-- The left operand is read on the result's row. -/
theorem lhs_row (j : S5000x128.Idx) (κ : D.contr.Idx) : (D.lhsIdx j κ 0).val = (j 0).val := by
  unfold DotDims.lhsIdx
  rw [dif_neg (show ¬(0 : Fin S5000x128.rank) ∈ D.lhsBatch by decide),
    dif_pos (show (0 : Fin S5000x128.rank) ∈ D.lhsNonContracting by decide)]
  rfl

/-- and at the contraction position along its last axis. -/
theorem lhs_col (j : S5000x128.Idx) (κ : D.contr.Idx) : (D.lhsIdx j κ 1).val = (κ ⟨0, by decide⟩).val :=
  D.lhsIdx_val_of_single rfl j κ

/-- The right operand is read on the row named by the result's COLUMN (the weights are stored transposed), -/
theorem rhs_row (j : S5000x128.Idx) (κ : D.contr.Idx) : (D.rhsIdx j κ 0).val = (j 1).val := by
  unfold DotDims.rhsIdx
  rw [dif_neg (show ¬(0 : Fin S128x128.rank) ∈ D.rhsBatch by decide),
    dif_pos (show (0 : Fin S128x128.rank) ∈ D.rhsNonContracting by decide)]
  rfl

/-- and at the contraction position along its last axis too. -/
theorem rhs_col (j : S5000x128.Idx) (κ : D.contr.Idx) : (D.rhsIdx j κ 1).val = (κ ⟨0, by decide⟩).val :=
  D.rhsIdx_val_of_single rfl j κ

/-- The body's product into the zero accumulator, at `(p, q)`: row `p` of the left operand against row `q` of the right. -/
theorem product_apply (l : FVec Ideal S5000x128 .bf16) (r : FVec Ideal S128x128 .bf16) (p : Fin 5000) (q : Fin 128) :
    matmul D none l r (constant (F := Ideal) S5000x128 .f32 0x00000000#32) (ix2 p q)
      = ∑ k : Fin 128, l (ix2 p k) * r (ix2 q k) :=
  Cert.LibContract1.matmul_zero_single D 128 rfl rfl l r (ix2 p q) (fun k => ix2 p k) (fun k => ix2 q k)
    (fun k => funext fun a => Fin.ext (by
      have hk := contrEquiv1_symm_val D 128 rfl rfl k
      match a with
      | ⟨0, _⟩ => exact lhs_row _ _
      | ⟨1, _⟩ => exact (lhs_col _ _).trans hk))
    (fun k => funext fun a => Fin.ext (by
      have hk := contrEquiv1_symm_val D 128 rfl rfl k
      match a with
      | ⟨0, _⟩ => exact rhs_row _ _
      | ⟨1, _⟩ => exact (rhs_col _ _).trans hk))

/-- The bias as the body lays it out — one row, repeated down the tile — at `(p, q)` is the bias at `q`. -/
theorem bias_apply (b : FVec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans (shapeCast_a_1a_apply b shapeCasts_S128_S1x128 0 q)

/-- The tile's formula at row `p`, channel `q`, of the five loaded blocks. -/
def tileEntry (a x : Vec Ideal S5000x128 .f32) (wl wr : Vec Ideal S128x128 .f32) (b : Vec Ideal S128 .f32)
    (p : Fin 5000) (q : Fin 128) : EReal :=
  max ((∑ k : Fin 128, a (ix2 p k) * wl (ix2 q k) + ∑ k : Fin 128, x (ix2 p k) * wr (ix2 q k)) + b (ix1 q))
    (Ideal.ofBits .f32 0x00000000#32)

/-- THE TILE'S VALUE at `(p, q)`. -/
theorem pay_apply (a x : Vec Ideal S5000x128 .f32) (wl wr : Vec Ideal S128x128 .f32) (b : Vec Ideal S128 .f32)
    (p : Fin 5000) (q : Fin 128) :
    k0_pay1 (F := Ideal) a x wl wr b (ix2 p q) = tileEntry a x wl wr b p q := by
  unfold k0_pay1 tileEntry
  rw [maximumf_apply, addf_apply, addf_apply, product_apply, product_apply, bias_apply, broadcast_apply]
  simp only [truncf_apply, shapeCast_self, Ideal.ofBits_def]

/-- The tile's value as a function of the tile index: the formula at the index's two coordinates. -/
theorem pay_fun (a x : Vec Ideal S5000x128 .f32) (wl wr : Vec Ideal S128x128 .f32) (b : Vec Ideal S128 .f32) :
    k0_pay1 (F := Ideal) a x wl wr b = fun j : S5000x128.Idx => tileEntry a x wl wr b (j 0) (j 1) :=
  funext fun j => by
    obtain ⟨p, q, rfl⟩ : ∃ (p : Fin 5000) (q : Fin 128), j = ix2 p q := ⟨j 0, j 1, eq_ix2 j⟩
    exact pay_apply a x wl wr b p q

end Cert.KernelIdeal.Tile

end
-- ==== Proof.BlockReads.lean ====
/-
  Each input window's block at a grid point, read as rows of the window's array.

  A block's element at position `y` of the block sits in the array at (block index × block size + `y`) on every axis.
  The two feature windows cut the [100000, 128] arrays into 20 blocks of 5000 rows; both weight matrices and the bias
  are single blocks. Each fact is first stated for ARBITRARY contents `A` of the array, so that nothing about the
  contents can enter the argument, and then read at the contents the region is entered with.
-/
import proofs.«126269_j56796647522798_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

/-! ## For any contents of the array -/

/-- Row `p` of the first window's block at point `t` is row `P` of its array, `P` the block's first row plus `p`. -/
theorem rows0 (t : Fin cfg0.N) (A : S100000x128.Idx → EReal) (p : Fin 5000) (k : Fin 128) (P : Fin 100000)
    (hP : P.val = win0_0.index t (0 : Fin 2) * 5000 + p.val) (h1 : win0_0.index t (1 : Fin 2) = 0) :
    (((cfg0.win 0).blk t).view.read (Elt Ideal) A : Vec Ideal S5000x128 .f32) (ix2 p k) = A (ix2 P k) := by
  show A (((cfg0.win 0).blk t).view.emb (ix2 p k)) = A (ix2 P k)
  refine congrArg A (funext fun a => Fin.ext ?_)
  match a with
  | ⟨0, _⟩ => show win0_0.index t (0 : Fin 2) * 5000 + 1 * p.val = P.val; omega
  | ⟨1, _⟩ => show win0_0.index t (1 : Fin 2) * 128 + 1 * k.val = k.val; omega

/-- The same for the second window. -/
theorem rows1 (t : Fin cfg0.N) (A : S100000x128.Idx → EReal) (p : Fin 5000) (k : Fin 128) (P : Fin 100000)
    (hP : P.val = win0_1.index t (0 : Fin 2) * 5000 + p.val) (h1 : win0_1.index t (1 : Fin 2) = 0) :
    (((cfg0.win 1).blk t).view.read (Elt Ideal) A : Vec Ideal S5000x128 .f32) (ix2 p k) = A (ix2 P k) := by
  show A (((cfg0.win 1).blk t).view.emb (ix2 p k)) = A (ix2 P k)
  refine congrArg A (funext fun a => Fin.ext ?_)
  match a with
  | ⟨0, _⟩ => show win0_1.index t (0 : Fin 2) * 5000 + 1 * p.val = P.val; omega
  | ⟨1, _⟩ => show win0_1.index t (1 : Fin 2) * 128 + 1 * k.val = k.val; omega

/-- The third window's one block is its whole [128, 128] array. -/
theorem whole2 (t : Fin cfg0.N) (A : S128x128.Idx → EReal) (q k : Fin 128)
    (h0 : win0_2.index t (0 : Fin 2) = 0) (h1 : win0_2.index t (1 : Fin 2) = 0) :
    (((cfg0.win 2).blk t).view.read (Elt Ideal) A : Vec Ideal S128x128 .f32) (ix2 q k) = A (ix2 q k) := by
  show A (((cfg0.win 2).blk t).view.emb (ix2 q k)) = A (ix2 q k)
  refine congrArg A (funext fun a => Fin.ext ?_)
  match a with
  | ⟨0, _⟩ => show win0_2.index t (0 : Fin 2) * 128 + 1 * q.val = q.val; omega
  | ⟨1, _⟩ => show win0_2.index t (1 : Fin 2) * 128 + 1 * k.val = k.val; omega

/-- The same for the fourth window. -/
theorem whole3 (t : Fin cfg0.N) (A : S128x128.Idx → EReal) (q k : Fin 128)
    (h0 : win0_3.index t (0 : Fin 2) = 0) (h1 : win0_3.index t (1 : Fin 2) = 0) :
    (((cfg0.win 3).blk t).view.read (Elt Ideal) A : Vec Ideal S128x128 .f32) (ix2 q k) = A (ix2 q k) := by
  show A (((cfg0.win 3).blk t).view.emb (ix2 q k)) = A (ix2 q k)
  refine congrArg A (funext fun a => Fin.ext ?_)
  match a with
  | ⟨0, _⟩ => show win0_3.index t (0 : Fin 2) * 128 + 1 * q.val = q.val; omega
  | ⟨1, _⟩ => show win0_3.index t (1 : Fin 2) * 128 + 1 * k.val = k.val; omega

/-- The fifth window's one block is its whole [128] array. -/
theorem whole4 (t : Fin cfg0.N) (A : S128.Idx → EReal) (q : Fin 128) (h0 : win0_4.index t (0 : Fin 1) = 0) :
    (((cfg0.win 4).blk t).view.read (Elt Ideal) A : Vec Ideal S128 .f32) (ix1 q) = A (ix1 q) := by
  show A (((cfg0.win 4).blk t).view.emb (ix1 q)) = A (ix1 q)
  refine congrArg A (funext fun a => Fin.ext ?_)
  match a with
  | ⟨0, _⟩ => show win0_4.index t (0 : Fin 1) * 128 + 1 * q.val = q.val; omega

/-! ## At the contents the region is entered with -/

variable (m : (ℓ : Loc nD τ sig) → Buf (Elt Ideal) ℓ)

/-- The aggregated features' block. -/
theorem agg_block (c : Dev nD) (t : Fin cfg0.N) (p : Fin 5000) (k : Fin 128) (P : Fin 100000)
    (hP : P.val = win0_0.index t (0 : Fin 2) * 5000 + p.val) (h1 : win0_0.index t (1 : Fin 2) = 0) :
    (iblk m c 0 t : Vec Ideal S5000x128 .f32) (ix2 p k) = (V m c main_v22 : S100000x128.Idx → EReal) (ix2 P k) :=
  rows0 t (V m c main_v22) p k P hP h1

/-- The node features' block. -/
theorem feat_block (c : Dev nD) (t : Fin cfg0.N) (p : Fin 5000) (k : Fin 128) (P : Fin 100000)
    (hP : P.val = win0_1.index t (0 : Fin 2) * 5000 + p.val) (h1 : win0_1.index t (1 : Fin 2) = 0) :
    (iblk m c 1 t : Vec Ideal S5000x128 .f32) (ix2 p k) = (V m c main_arg0 : S100000x128.Idx → EReal) (ix2 P k) :=
  rows1 t (V m c main_arg0) p k P hP h1

/-- The neighbour weights. -/
theorem wl_block (c : Dev nD) (t : Fin cfg0.N) (q k : Fin 128)
    (h0 : win0_2.index t (0 : Fin 2) = 0) (h1 : win0_2.index t (1 : Fin 2) = 0) :
    (iblk m c 2 t : Vec Ideal S128x128 .f32) (ix2 q k) = (V m c main_arg2 : S128x128.Idx → EReal) (ix2 q k) :=
  whole2 t (V m c main_arg2) q k h0 h1

/-- The self weights. -/
theorem wr_block (c : Dev nD) (t : Fin cfg0.N) (q k : Fin 128)
    (h0 : win0_3.index t (0 : Fin 2) = 0) (h1 : win0_3.index t (1 : Fin 2) = 0) :
    (iblk m c 3 t : Vec Ideal S128x128 .f32) (ix2 q k) = (V m c main_arg4 : S128x128.Idx → EReal) (ix2 q k) :=
  whole3 t (V m c main_arg4) q k h0 h1

/-- The bias. -/
theorem bias_block (c : Dev nD) (t : Fin cfg0.N) (q : Fin 128) (h0 : win0_4.index t (0 : Fin 1) = 0) :
    (iblk m c 4 t : Vec Ideal S128 .f32) (ix1 q) = (V m c main_arg3 : S128.Idx → EReal) (ix1 q) :=
  whole4 t (V m c main_arg3) q h0

end Cert.KernelIdeal.Blocks

end
-- ==== Proof.MeanAggregate.lean ====
/-
  The aggregation stage is the same function in both programs.

  Before the dense stage both programs compute, from the node features `x` and the edge list `e`, the mean of each
  node's incoming neighbour features: the source row of every edge is gathered (a negative source index first shifted
  by the number of nodes), the gathered rows are summed at their destination nodes, the in-degree is counted the same
  way from a vector of ones, and each node's sum is divided by its in-degree clamped below at one. The kernel's program
  and the reference spell this stage with the same operations in the same order on the same literals, so the array the
  kernel's region finds in its first window is the reference's value of that stage at the same arguments. Nothing of
  the stage is ever opened: the two spellings are compared as terms.
-/
import proofs.«126269_j56796647522798_1_alg».proof.Proof.Gen.KernelIdeal.Frame
import proofs.«126269_j56796647522798_1_alg».proof.Proof.Gen.ReferenceIdeal.Read
import Idealize.ShloMosaic.Lib.StableHlo.Run

noncomputable section

namespace Cert.KernelIdeal.Aggregate

open Cert.KernelIdeal Cert.KernelIdeal.Gen Idealize.ShloMosaic Idealize.ShloMosaic.TcCoe Idealize.SL.Sem
open Idealize.ShloMosaic.StableHlo

/-- The aggregated features the region is entered with are the reference's aggregated features of the launch's node
    features and edge list. -/
theorem agg_eq (m : (ℓ : Loc nD τ sig) → Buf (Elt Ideal) ℓ) (c : Dev nD) :
    (V m c main_v22 : S100000x128.Idx → EReal)
      = Cert.ReferenceIdeal.Read.val_main_v22 (F := Ideal) (m ((c : Thread nD τ).loc main_arg0))
          (m ((c : Thread nD τ).loc main_arg1)) := by
  dsimp only [Gen.V, Gen.hostOps0]
  after_results_simp
  rfl

end Cert.KernelIdeal.Aggregate

end
-- ==== Proof.ConvActSpec.lean ====
/-
  The dense stage of a mean-aggregating graph convolution followed by a rectifier, as ONE function of its arrays.

  Given the aggregated neighbour features `agg` and the node features `x` (both [100000, 128]), the two weight
  matrices `wl`, `wr` ([128, 128], stored output-row-major: row `q` holds the coefficients of output channel `q`) and
  the bias `b` ([128]), the result at node `p`, channel `q` is

      max ( (Σ_k agg[p,k] · wl[q,k]  +  Σ_k x[p,k] · wr[q,k])  +  b[q] ,  0 )

  over the extended reals. The three summands may be grouped either way: addition of extended reals is commutative
  and associative (⊥ absorbs ⊤), so `(A + C) + b = (A + b) + C` needs no finiteness of the inputs.
-/
import Idealize.ShloMosaic.PureOps.Ideal
import Idealize.ShloMosaic.Lib.ValueIdx

noncomputable section

namespace Cert.ConvAct

open Idealize.ShloMosaic Idealize.ShloMosaic.ValueIdx

/-- The result at node `p`, output channel `q`: both products contract the LAST axis of both operands, the bias is
    added after the two products, and the rectifier's threshold is the f32 zero word. -/
def entry (agg x : (⟨2, ![100000, 128]⟩ : Shape).Idx → EReal) (wl wr : (⟨2, ![128, 128]⟩ : Shape).Idx → EReal)
    (b : (⟨1, ![128]⟩ : Shape).Idx → EReal) (p : Fin 100000) (q : Fin 128) : EReal :=
  max ((∑ k : Fin 128, agg (ix2 p k) * wl (ix2 q k) + ∑ k : Fin 128, x (ix2 p k) * wr (ix2 q k)) + b (ix1 q))
    (Ideal.ofBits .f32 0x00000000#32)

/-- The whole result array: `entry` at the index's two coordinates. -/
def convAct (agg x : (⟨2, ![100000, 128]⟩ : Shape).Idx → EReal) (wl wr : (⟨2, ![128, 128]⟩ : Shape).Idx → EReal)
    (b : (⟨1, ![128]⟩ : Shape).Idx → EReal) : (⟨2, ![100000, 128]⟩ : Shape).Idx → EReal :=
  fun i => entry agg x wl wr b (i 0) (i 1)

theorem convAct_apply (agg x : (⟨2, ![100000, 128]⟩ : Shape).Idx → EReal) (wl wr : (⟨2, ![128, 128]⟩ : Shape).Idx → EReal)
    (b : (⟨1, ![128]⟩ : Shape).Idx → EReal) (p : Fin 100000) (q : Fin 128) :
    convAct agg x wl wr b (ix2 p q) = entry agg x wl wr b p q := rfl

/-- The law that joins the two programs: the bias added between the two products, or after both. -/
theorem bias_between (A C β : EReal) : (A + β) + C = (A + C) + β := add_right_comm A β C

end Cert.ConvAct

end
-- ==== Proof.TilesToArray.lean ====
/-
  From tiles to the whole array, and the kernel's run read as the specification.

  The grid has 20 points; point `t` works on rows `5000·t … 5000·t + 4999` of the aggregated features, of the node
  features and of the result, and on the whole of both weight matrices and of the bias. So the tile's entry `(p, q)`
  (TilePayload) is the specification's entry `(5000·t + p, q)` of the arrays as the region finds them (BlockReads);
  row `r` of the result is covered by the point whose tile is `r / 5000`; hence the result array ends as the
  specification of those arrays. The region finds the four argument arrays as launched and, in its first window, the
  shared aggregation stage's value (MeanAggregate).
-/
import proofs.«126269_j56796647522798_1_alg».proof.Proof.Gen.KernelIdeal.Value
import proofs.«126269_j56796647522798_1_alg».proof.Proof.TilePayload
import proofs.«126269_j56796647522798_1_alg».proof.Proof.BlockReads
import proofs.«126269_j56796647522798_1_alg».proof.Proof.MeanAggregate
import proofs.«126269_j56796647522798_1_alg».proof.Proof.ConvActSpec
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-! ## The grid -/

/-- The printed index maps over the 20 grid points: the two feature windows move down the rows with the result's
    window, the weights and the bias stay at block 0, and nothing moves along the channels. -/
theorem tile_rows : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (1 : Fin 2) = 0 ∧ win0_5.index t (0 : Fin 2) ≤ 19 :=
  (by decide +kernel : ∀ t : Fin grid0.N, _)

/-- Every one of the 20 row tiles is some point's. -/
theorem tile_onto : ∀ r : Fin 20, ∃ t : Fin cfg0.N, win0_5.index t = ![r.val, 0] :=
  (by decide +kernel : ∀ r : Fin 20, ∃ t : Fin grid0.N, win0_5.index t = ![r.val, 0])

/-! ## What a point writes back -/

/-- What point `t` writes back is block `t` of ANY array function that agrees, at the block's rows, with the tile's
    formula of the point's input blocks: the body's one store covers the tile, and the tile's entry `(p, q)` lands at
    row (block index × 5000 + `p`), channel `q`. -/
theorem flushed_of (c : Dev nD) (t : Fin cfg0.N) (Gf : S100000x128.Idx → EReal)
    (hcol : win0_5.index t (1 : Fin 2) = 0) (hrow : win0_5.index t (0 : Fin 2) ≤ 19)
    (hG : ∀ (p : Fin 5000) (q : Fin 128) (P : Fin 100000), P.val = win0_5.index t (0 : Fin 2) * 5000 + p.val →
      Tile.tileEntry (iblk m c 0 t) (iblk m c 1 t) (iblk m c 2 t) (iblk m c 3 t) (iblk m c 4 t) p q = Gf (ix2 P q)) :
    (dats m 0 c).flushed 5 t = ((cfg0.win 5).blk t).view.read (Elt Ideal) Gf := by
  rw [Cert.KernelIdeal.Value.flushed5]
  unfold out0_5
  rw [View.canon_unit_zero zero2]
  simp only [View.ld_unit_zero (S := S5000x128) zero2, View.ld_unit_zero (S := S128x128) zero2,
    View.ld_unit_zero (S := S128) zero1]
  rw [Tile.pay_fun]
  funext j
  have hj0 : (j 0).val < 5000 := (j 0).isLt
  have hj1 : (j 1).val < 128 := (j 1).isLt
  obtain ⟨P, hP⟩ : ∃ P : Fin 100000, P.val = win0_5.index t (0 : Fin 2) * 5000 + (j 0).val :=
    ⟨⟨win0_5.index t (0 : Fin 2) * 5000 + (j 0).val, by omega⟩, rfl⟩
  have hemb : ((cfg0.win 5).blk t).view.emb j = ix2 P ⟨(j 1).val, hj1⟩ := funext fun a => Fin.ext (by
    match a with
    | ⟨0, _⟩ => show win0_5.index t (0 : Fin 2) * 5000 + 1 * (j 0).val = P.val; omega
    | ⟨1, _⟩ => show win0_5.index t (1 : Fin 2) * 128 + 1 * (j 1).val = (j 1).val; omega)
  show Tile.tileEntry (iblk m c 0 t) (iblk m c 1 t) (iblk m c 2 t) (iblk m c 3 t) (iblk m c 4 t)
      ⟨(j 0).val, hj0⟩ ⟨(j 1).val, hj1⟩ = Gf (((cfg0.win 5).blk t).view.emb j)
  rw [hemb]
  exact hG ⟨(j 0).val, hj0⟩ ⟨(j 1).val, hj1⟩ P hP

/-- The tile's formula is the specification's entry, once the tile's rows are the arrays' rows at `P` and its weights
    and bias are the arrays'. -/
theorem entry_of_tile (agg x : S100000x128.Idx → EReal) (wl wr : S128x128.Idx → EReal) (b : S128.Idx → EReal)
    (a' x' : Vec Ideal S5000x128 .f32) (wl' wr' : Vec Ideal S128x128 .f32) (b' : Vec Ideal S128 .f32)
    (P : Fin 100000) (p : Fin 5000) (q : Fin 128)
    (ha : ∀ k : Fin 128, a' (ix2 p k) = agg (ix2 P k)) (hx : ∀ k : Fin 128, x' (ix2 p k) = x (ix2 P k))
    (hwl : ∀ k : Fin 128, wl' (ix2 q k) = wl (ix2 q k)) (hwr : ∀ k : Fin 128, wr' (ix2 q k) = wr (ix2 q k))
    (hb : b' (ix1 q) = b (ix1 q)) :
    Tile.tileEntry a' x' wl' wr' b' p q = Cert.ConvAct.convAct agg x wl wr b (ix2 P q) := by
  rw [Cert.ConvAct.convAct_apply]
  unfold Tile.tileEntry Cert.ConvAct.entry
  simp only [ha, hx, hwl, hwr, hb]

/-- The specification of the arrays as the region finds them. -/
abbrev atEntry (c : Dev nD) : S100000x128.Idx → EReal :=
  Cert.ConvAct.convAct (V m c main_v22) (V m c main_arg0) (V m c main_arg2) (V m c main_arg4) (V m c main_arg3)

/-- WHAT POINT `t` WRITES BACK is block `t` of the specification. -/
theorem flushed_eq (c : Dev nD) (t : Fin cfg0.N) :
    (dats m 0 c).flushed 5 t = ((cfg0.win 5).blk t).view.read (Elt Ideal) (atEntry m c) := by
  obtain ⟨e0, e1, e2, e3, e4, e5, e6, e7, e8, e9, e10⟩ := tile_rows t
  refine flushed_of m c t (atEntry m c) e9 e10 fun p q P hP => ?_
  exact entry_of_tile (V m c main_v22) (V m c main_arg0) (V m c main_arg2) (V m c main_arg4) (V m c main_arg3)
    (iblk m c 0 t) (iblk m c 1 t) (iblk m c 2 t) (iblk m c 3 t) (iblk m c 4 t) P p q
    (fun k => Blocks.agg_block m c t p k P (by omega) e1)
    (fun k => Blocks.feat_block m c t p k P (by omega) e3)
    (fun k => Blocks.wl_block m c t q k e4 e5)
    (fun k => Blocks.wr_block m c t q k e6 e7)
    (Blocks.bias_block m c t q e8)

/-! ## The cover, and the array after the run -/

/-- An index of the result array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v23).slice (win0_5.rect t)).set ↔ _
  rw [View.set_slice_whole, Rect.mem_set_unit]
  exact Iff.rfl

/-- THE COVER: row `r` of the result is written by the point whose tile is `r / 5000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := tile_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- THE RESULT ARRAY after the run is the specification of the arrays as the region finds them. -/
theorem final (c : Dev nD) : (dats m 0 c).arrAt 5 cfg0.N = atEntry m c :=
  (dats m 0 c).arrAt_eq_of_cover 5 (atEntry m c) (fun t _ => flushed_eq m c t) cover

/-! ## In terms of the launch -/

/-- The specification of the launch's arrays: the aggregated features are the shared aggregation stage's value of the
    node features and the edge list. -/
abbrev result (c : Dev nD) : S100000x128.Idx → EReal :=
  Cert.ConvAct.convAct
    (Cert.ReferenceIdeal.Read.val_main_v22 (F := Ideal) (m ((c : Thread nD τ).loc main_arg0)) (m ((c : Thread nD τ).loc main_arg1)))
    (m ((c : Thread nD τ).loc main_arg0)) (m ((c : Thread nD τ).loc main_arg2)) (m ((c : Thread nD τ).loc main_arg4))
    (m ((c : Thread nD τ).loc main_arg3))

/-- The specification respects equality of its five arrays. -/
theorem convAct_congr {agg agg' x x' : S100000x128.Idx → EReal} {wl wl' wr wr' : S128x128.Idx → EReal}
    {b b' : S128.Idx → EReal} (h1 : agg = agg') (h2 : x = x') (h3 : wl = wl') (h4 : wr = wr') (h5 : b = b') :
    Cert.ConvAct.convAct agg x wl wr b = Cert.ConvAct.convAct agg' x' wl' wr' b' := by
  subst h1 h2 h3 h4 h5; rfl

/-- The result array after the run, from the launch's arrays. -/
theorem final_launch (c : Dev nD) : (dats m 0 c).arrAt 5 cfg0.N = result m c :=
  (final m c).trans (convAct_congr (Aggregate.agg_eq m c) (V_main_arg0 m c) (V_main_arg2 m c) (V_main_arg4 m c)
    (V_main_arg3 m c))

/-- THE KERNEL'S RUN, READ: the result array at the specification of the launch's arrays, the arguments unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_launch m c), (h c).2⟩)
    (Cert.KernelIdeal.Value.run_blocks m ρ)

end Cert.KernelIdeal.Whole

end
-- ==== Proof.ReferenceIsSpec.lean ====
/-
  The reference, read one operation at a time, is the specification.

  After the shared aggregation stage (gather the source rows, sum them at their destinations, divide by the clamped
  in-degree) the reference transposes each weight matrix and multiplies on the right, contracting the features' last
  axis with the transposed matrix's first: entry `(p, q)` of `agg · wlᵀ` is `Σ_k agg[p,k] · wl[q,k]`. It adds the bias
  BETWEEN the two products, `(agg · wlᵀ + b) + x · wrᵀ`, and takes the maximum with zero. Moving the bias to the end is
  the one regrouping of three summands that the specification's form asks for. The aggregation stage is carried as
  one unopened term.
-/
import proofs.«126269_j56796647522798_1_alg».proof.Proof.Gen.ReferenceIdeal.Read
import proofs.«126269_j56796647522798_1_alg».proof.Proof.ConvActSpec

noncomputable section

namespace Cert.ReferenceIdeal.RefValue

open Cert.ReferenceIdeal Cert.ReferenceIdeal.Read Idealize.ShloMosaic Idealize.ShloMosaic.ValueIdx

theorem reference_is_convAct (x : (⟨S100000x128, .f32⟩ : BufTy).Contents (Elt Ideal))
    (e : (⟨S2x1600000, .i32⟩ : BufTy).Contents (Elt Ideal)) (wl : (⟨S128x128, .f32⟩ : BufTy).Contents (Elt Ideal))
    (b : (⟨S128, .f32⟩ : BufTy).Contents (Elt Ideal)) (wr : (⟨S128x128, .f32⟩ : BufTy).Contents (Elt Ideal)) :
    val_main_v31 (F := Ideal) x e wl b wr = Cert.ConvAct.convAct (val_main_v22 (F := Ideal) x e) x wl wr b := by
  funext i
  obtain ⟨p, q, rfl⟩ : ∃ (p : Fin 100000) (q : Fin 128), i = ix2 p q := ⟨i 0, i 1, eq_ix2 i⟩
  rw [Cert.ConvAct.convAct_apply, val_main_v31_apply, val_main_v30_apply, val_main_v27_apply, val_main_v24_apply,
    val_main_v29_apply, val_main_v26_apply, val_main_v25_apply, val_main_call0_v0_apply, val_main_call0_cst_apply]
  have hl : ∀ k : Fin 128, lidx_main_v24 (ix2 p q) k = ix2 p k := fun k => funext fun a => Fin.ext (by
    match a with | ⟨0, _⟩ => rfl | ⟨1, _⟩ => rfl)
  have hr : ∀ k : Fin 128, idx_main_v23 (ridx_main_v24 (ix2 p q) k) = ix2 q k := fun k => funext fun a => Fin.ext (by
    match a with | ⟨0, _⟩ => rfl | ⟨1, _⟩ => rfl)
  have hl' : ∀ k : Fin 128, lidx_main_v29 (ix2 p q) k = ix2 p k := fun k => funext fun a => Fin.ext (by
    match a with | ⟨0, _⟩ => rfl | ⟨1, _⟩ => rfl)
  have hr' : ∀ k : Fin 128, idx_main_v28 (ridx_main_v29 (ix2 p q) k) = ix2 q k := fun k => funext fun a => Fin.ext (by
    match a with | ⟨0, _⟩ => rfl | ⟨1, _⟩ => rfl)
  have hb : idx_main_v25 (idx_main_v26 (ix2 p q)) = ix1 q := funext fun a => Fin.ext (by
    match a with | ⟨0, _⟩ => rfl)
  simp only [val_main_v23_apply, val_main_v28_apply, hl, hr, hl', hr', hb, Ideal.maximumf_def, Ideal.addf_def,
    Ideal.ofBits_def]
  unfold Cert.ConvAct.entry
  rw [Cert.ConvAct.bias_between]

end Cert.ReferenceIdeal.RefValue

end
-- ==== Proof.lean ====
/-
  A mean-aggregating graph convolution followed by a rectifier: a tiled kernel against its plain reference.

  Both programs first compute, on the host and with the same operations, the mean of every node's incoming neighbour
  features `agg` (gather the source rows, sum them at their destinations, divide by the in-degree clamped below at one).
  The kernel then runs over 20 tiles of 5000 nodes; on each it forms `max((agg · wlᵀ + x · wrᵀ) + b, 0)` with both
  products contracting the last axis of both operands (the weights are stored output-row-major) and the operands
  narrowed to bf16 first, which changes nothing at the ideal values. The reference transposes the weights and forms
  `max((agg · wlᵀ + b) + x · wrᵀ, 0)` on the whole arrays.

  At the ideal values both are the one function `ConvAct.convAct` (ConvActSpec) of `agg`, `x`, `wl`, `wr`, `b`:
    * the kernel's result array, tile by tile (TilePayload, BlockReads, TilesToArray), with `agg` the shared stage's
      value (MeanAggregate);
    * the reference's result, operation by operation (ReferenceIsSpec), the bias moved past the second product —
      addition of extended reals is commutative and associative, so no finiteness of the inputs is used.
  The three frames are the generated runs; the kernel's idealization rewrote nothing.
-/
import proofs.«126269_j56796647522798_1_alg».proof.Defs
import proofs.«126269_j56796647522798_1_alg».proof.Proof.Gen.Kernel
import proofs.«126269_j56796647522798_1_alg».proof.Proof.Gen.Kernel.Skeleton
import proofs.«126269_j56796647522798_1_alg».proof.Proof.Gen.Kernel.Launch
import proofs.«126269_j56796647522798_1_alg».proof.Proof.Gen.Kernel.Points
import proofs.«126269_j56796647522798_1_alg».proof.Proof.Gen.Kernel.Frame
import proofs.«126269_j56796647522798_1_alg».proof.Proof.Gen.KernelIdeal
import proofs.«126269_j56796647522798_1_alg».proof.Proof.Gen.KernelIdeal.Skeleton
import proofs.«126269_j56796647522798_1_alg».proof.Proof.Gen.KernelIdeal.Launch
import proofs.«126269_j56796647522798_1_alg».proof.Proof.Gen.KernelIdeal.Points
import proofs.«126269_j56796647522798_1_alg».proof.Proof.Gen.KernelIdeal.Frame
import proofs.«126269_j56796647522798_1_alg».proof.Proof.Gen.ReferenceIdeal
import proofs.«126269_j56796647522798_1_alg».proof.Proof.Gen.KernelIdeal.Value
import proofs.«126269_j56796647522798_1_alg».proof.Proof.Gen.ReferenceIdeal.Run
import proofs.«126269_j56796647522798_1_alg».proof.Proof.Gen.ReferenceIdeal.Read
import proofs.«126269_j56796647522798_1_alg».proof.Proof.Gen.Pre_finite_inputs
import proofs.«126269_j56796647522798_1_alg».proof.Proof.TilesToArray
import proofs.«126269_j56796647522798_1_alg».proof.Proof.ReferenceIsSpec
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From launches agreeing on the five arguments, both programs end with the specification of those arguments in their
    result arrays: the kernel tile by tile, the reference operation by operation with the bias moved past the second
    product. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.reference_is_convAct,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
